-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S200000x256 : Shape := ⟨2, ![200000, 256]⟩
abbrev S500000x128 : Shape := ⟨2, ![500000, 128]⟩
abbrev S500000 : Shape := ⟨1, ![500000]⟩
abbrev S384x256 : Shape := ⟨2, ![384, 256]⟩
abbrev S384x128 : Shape := ⟨2, ![384, 128]⟩
abbrev S384 : Shape := ⟨1, ![384]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000 : S_.BroadcastsInDim S200000 (![] : Fin 0 → Fin S200000.rank)
  reducesTo_S200000_S_d0 : S200000.ReducesTo [0] S_
  bcast_S_S500000x128 : S_.BroadcastsInDim S500000x128 (![] : Fin 0 → Fin S500000x128.rank)
  reducesTo_S500000x128_S_d0_1 : S500000x128.ReducesTo [0, 1] S_
  bcast_S_S500000 : S_.BroadcastsInDim S500000 (![] : Fin 0 → Fin S500000.rank)
  reducesTo_S500000_S_d0 : S500000.ReducesTo [0] S_
  bcast_S_S384x256 : S_.BroadcastsInDim S384x256 (![] : Fin 0 → Fin S384x256.rank)
  reducesTo_S384x256_S_d0_1 : S384x256.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg5 : FVec F S384x256 .f32) (main_arg6 : FVec F S384x128 .f32) (main_arg7 : FVec F S384 .f32) (main_arg8 : FVec F S384 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S384x256 .f32 := Host.absf main_arg5
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_v33

def fn {F : FTy → Type} [FloatOps F] (main_arg0 : IVec S200000 32) (main_arg1 : FVec F S200000x256 .f32) (main_arg2 : FVec F S200000 .f32) (main_arg3 : FVec F S500000x128 .f32) (main_arg4 : FVec F S500000 .f32) (main_arg5 : FVec F S384x256 .f32) (main_arg6 : FVec F S384x128 .f32) (main_arg7 : FVec F S384 .f32) (main_arg8 : FVec F S384 .f32) : IVec S_ 1 :=
  let main_v0 : FVec F S200000x256 .f32 := Host.absf main_arg1
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000 .f32 := Host.absf main_arg2
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  let main_v9 : FVec F S500000x128 .f32 := Host.absf main_arg3
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S500000 .f32 := Host.absf main_arg4
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg5 main_arg6 main_arg7 main_arg8 main_v13 main_v16
-- ==== Kernel.lean ====
abbrev S200000 : Shape := ⟨1, ![200000]⟩
abbrev S200000x256 : Shape := ⟨2, ![200000, 256]⟩
abbrev S500000x128 : Shape := ⟨2, ![500000, 128]⟩
abbrev S500000 : Shape := ⟨1, ![500000]⟩
abbrev S384x256 : Shape := ⟨2, ![384, 256]⟩
abbrev S384x128 : Shape := ⟨2, ![384, 128]⟩
abbrev S384 : Shape := ⟨1, ![384]⟩
abbrev S_ : Shape := ⟨0, ![]⟩
abbrev S200000x1 : Shape := ⟨2, ![200000, 1]⟩
abbrev S200000x128 : Shape := ⟨2, ![200000, 128]⟩
abbrev S200704x256 : Shape := ⟨2, ![200704, 256]⟩
abbrev S200704x128 : Shape := ⟨2, ![200704, 128]⟩
abbrev S256x384 : Shape := ⟨2, ![256, 384]⟩
abbrev S128x384 : Shape := ⟨2, ![128, 384]⟩
abbrev S1024x256 : Shape := ⟨2, ![1024, 256]⟩
abbrev S1024x128 : Shape := ⟨2, ![1024, 128]⟩
abbrev S1024x384 : Shape := ⟨2, ![1024, 384]⟩
abbrev S1x384 : Shape := ⟨2, ![1, 384]⟩

abbrev nBuf : Space → Nat
  | .hbm => 48
  | .vmem => 10
  | .smem => 0
  | _ => 0

abbrev bufTy : (tb : Table) → Fin (tcTables nBuf tb) → BufTy
  | .hbm, ⟨0, _⟩ => ⟨S200000, .i32⟩
  | .hbm, ⟨1, _⟩ => ⟨S200000x256, .f32⟩
  | .hbm, ⟨2, _⟩ => ⟨S200000, .f32⟩
  | .hbm, ⟨3, _⟩ => ⟨S500000x128, .f32⟩
  | .hbm, ⟨4, _⟩ => ⟨S500000, .f32⟩
  | .hbm, ⟨5, _⟩ => ⟨S384x256, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x128, .f32⟩
  | .hbm, ⟨18, _⟩ => ⟨S_, .i32⟩
  | .hbm, ⟨19, _⟩ => ⟨S_, .f32⟩
  | .hbm, ⟨20, _⟩ => ⟨S200704x256, .f32⟩
  | .hbm, ⟨21, _⟩ => ⟨S_, .i32⟩
  | .hbm, ⟨22, _⟩ => ⟨S_, .f32⟩
  | .hbm, ⟨23, _⟩ => ⟨S200704x128, .f32⟩
  | .hbm, ⟨24, _⟩ => ⟨S256x384, .f32⟩
  | .hbm, ⟨25, _⟩ => ⟨S256x384, .bf16⟩
  | .hbm, ⟨26, _⟩ => ⟨S128x384, .f32⟩
  | .hbm, ⟨27, _⟩ => ⟨S128x384, .bf16⟩
  | .hbm, ⟨28, _⟩ => ⟨S200704x128, .f32⟩
  | .hbm, ⟨29, _⟩ => ⟨S200000x128, .f32⟩
  | .hbm, ⟨30, _⟩ => ⟨S_, .i32⟩
  | .hbm, ⟨31, _⟩ => ⟨S200000, .i32⟩
  | .hbm, ⟨32, _⟩ => ⟨S200000, .i1⟩
  | .hbm, ⟨33, _⟩ => ⟨S_, .i32⟩
  | .hbm, ⟨34, _⟩ => ⟨S200000, .i32⟩
  | .hbm, ⟨35, _⟩ => ⟨S200000, .i32⟩
  | .hbm, ⟨36, _⟩ => ⟨S200000, .i32⟩
  | .hbm, ⟨37, _⟩ => ⟨S200000x1, .i32⟩
  | .hbm, ⟨38, _⟩ => ⟨S500000x128, .f32⟩
  | .hbm, ⟨39, _⟩ => ⟨S_, .i32⟩
  | .hbm, ⟨40, _⟩ => ⟨S200000, .i32⟩
  | .hbm, ⟨41, _⟩ => ⟨S200000, .i1⟩
  | .hbm, ⟨42, _⟩ => ⟨S_, .i32⟩
  | .hbm, ⟨43, _⟩ => ⟨S200000, .i32⟩
  | .hbm, ⟨44, _⟩ => ⟨S200000, .i32⟩
  | .hbm, ⟨45, _⟩ => ⟨S200000, .i32⟩
  | .hbm, ⟨46, _⟩ => ⟨S200000x1, .i32⟩
  | .hbm, ⟨47, _⟩ => ⟨S500000, .f32⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S256x384, .bf16⟩
  | .local _ .vmem, ⟨5, _⟩ => ⟨S128x384, .bf16⟩
  | .local _ .vmem, ⟨6, _⟩ => ⟨S384, .f32⟩
  | .local _ .vmem, ⟨7, _⟩ => ⟨S384, .f32⟩
  | .local _ .vmem, ⟨8, _⟩ => ⟨S1024x128, .f32⟩
  | .local _ .vmem, ⟨9, _⟩ => ⟨S1024x128, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_c_1 : Ref sig .tc := ⟨.hbm, 18, rfl⟩
abbrev main_call0_call0_v0 : Ref sig .tc := ⟨.hbm, 19, rfl⟩
abbrev main_call0_v7 : Ref sig .tc := ⟨.hbm, 20, rfl⟩
abbrev main_call0_c_2 : Ref sig .tc := ⟨.hbm, 21, rfl⟩
abbrev main_call0_call1_v0 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_3 : Ref sig .tc := ⟨.hbm, 30, rfl⟩
abbrev main_call0_v15 : Ref sig .tc := ⟨.hbm, 31, rfl⟩
abbrev main_call0_v16 : Ref sig .tc := ⟨.hbm, 32, rfl⟩
abbrev main_call0_c_4 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_v0_0 : Ref sig .tc := ⟨.hbm, 38, rfl⟩
abbrev main_call0_c_5 : Ref sig .tc := ⟨.hbm, 39, rfl⟩
abbrev main_call0_v22 : Ref sig .tc := ⟨.hbm, 40, rfl⟩
abbrev main_call0_v23 : Ref sig .tc := ⟨.hbm, 41, rfl⟩
abbrev main_call0_c_6 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_v0_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  pads_S200000x256_S200704x256_07040_000 : S200000x256.Pads (![0, 0] : Fin 2 → Nat) ![704, 0] ![0, 0] S200704x256
  h_S_ : 0 < S_.numel
  pads_S200000x128_S200704x128_07040_000 : S200000x128.Pads (![0, 0] : Fin 2 → Nat) ![704, 0] ![0, 0] S200704x128
  transposes_S384x256_S256x384_1_0 : S384x256.Transposes [1, 0] S256x384
  bitsLt_bf16_f32 : FTy.bits .bf16 < FTy.bits .f32
  transposes_S384x128_S128x384_1_0 : S384x128.Transposes [1, 0] S128x384
  slices_S200704x128_S200000x128_0_0 : S200704x128.Slices ![0, 0] S200000x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  gather_S500000x128_S200000x1_S200000x128_1_0_n_n_0_1_1128_wf : GatherDims.WF S500000x128 S200000x1 S200000x128 [1] [0] [] [0] [] 1 ![1, 128]
  scatter_S500000x128_S200000x1_S200000x128_1_0_0_1_wf : ScatterDims.WF S500000x128 S200000x1 S200000x128 [1] [0] [0] 1
  scatter_S500000_S200000x1_S200000_n_0_0_1_wf : ScatterDims.WF S500000 S200000x1 S200000 [] [0] [0] 1
  dot_S1024x256_S256x384_S1024x384_1_0_0_1_n_n_wf : DotDims.WF S1024x256 S256x384 S1024x384 [1] [0] [0] [1] [] []
  dot_S1024x128_S128x384_S1024x384_1_0_0_1_n_n_wf : DotDims.WF S1024x128 S128x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S200704x256.size a
  hwx0_0 : ∀ i : grid0.Coords, EltTy.bits .f32 = 32 ∨ (Rect.block (s := S200704x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S200704x128.size a
  hwx0_1 : ∀ i : grid0.Coords, EltTy.bits .f32 = 32 ∨ (Rect.block (s := S200704x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x384.size a ≤ S256x384.size a
  hwx0_2 : ∀ i : grid0.Coords, EltTy.bits .bf16 = 32 ∨ (Rect.block (s := S256x384) S256x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384.size a ≤ S384.size a
  hwx0_5 : ∀ i : grid0.Coords, EltTy.bits .f32 = 32 ∨ (Rect.block (s := S384) S384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S200704x128.size a
  hwx0_6 : ∀ i : grid0.Coords, EltTy.bits .f32 = 32 ∨ (Rect.block (s := S200704x128) S1024x128.size (cc0_transform_6 i) (hinb0_6 i)).WholeWords (EltTy.packing .f32)

variable [Facts₀]

def gather_S500000x128_S200000x1_S200000x128_1_0_n_n_0_1_1128 : GatherDims S500000x128 S200000x1 S200000x128 where
  offsetDims := [1]
  collapsedSliceDims := [0]
  operandBatchingDims := []
  startIndicesBatchingDims := []
  startIndexMap := [0]
  indexVectorDim := 1
  sliceSizes := ![1, 128]
  wf := gather_S500000x128_S200000x1_S200000x128_1_0_n_n_0_1_1128_wf
def scatter_S500000x128_S200000x1_S200000x128_1_0_0_1 : ScatterDims S500000x128 S200000x1 S200000x128 where
  updateWindowDims := [1]
  insertedWindowDims := [0]
  scatterDimsToOperandDims := [0]
  indexVectorDim := 1
  wf := scatter_S500000x128_S200000x1_S200000x128_1_0_0_1_wf
def scatter_S500000_S200000x1_S200000_n_0_0_1 : ScatterDims S500000 S200000x1 S200000 where
  updateWindowDims := []
  insertedWindowDims := [0]
  scatterDimsToOperandDims := [0]
  indexVectorDim := 1
  wf := scatter_S500000_S200000x1_S200000_n_0_0_1_wf
def dot_S1024x256_S256x384_S1024x384_1_0_0_1_n_n : DotDims S1024x256 S256x384 S1024x384 where
  lhsContracting := [1]
  rhsContracting := [0]
  lhsNonContracting := [0]
  rhsNonContracting := [1]
  lhsBatch := []
  rhsBatch := []
  wf := dot_S1024x256_S256x384_S1024x384_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf

abbrev win0_0 : Pipeline.Window sig grid0 :=
  Pipeline.Window.ofSpec (Memref.whole main_call0_v7) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S256x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v12) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v13) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000 : Shape := ⟨1, ![200000]⟩
abbrev S200000x256 : Shape := ⟨2, ![200000, 256]⟩
abbrev S500000x128 : Shape := ⟨2, ![500000, 128]⟩
abbrev S500000 : Shape := ⟨1, ![500000]⟩
abbrev S384x256 : Shape := ⟨2, ![384, 256]⟩
abbrev S384x128 : Shape := ⟨2, ![384, 128]⟩
abbrev S384 : Shape := ⟨1, ![384]⟩
abbrev S_ : Shape := ⟨0, ![]⟩
abbrev S200000x1 : Shape := ⟨2, ![200000, 1]⟩
abbrev S200000x128 : Shape := ⟨2, ![200000, 128]⟩
abbrev S256x384 : Shape := ⟨2, ![256, 384]⟩
abbrev S200000x384 : Shape := ⟨2, ![200000, 384]⟩
abbrev S1x384 : Shape := ⟨2, ![1, 384]⟩
abbrev S128x384 : Shape := ⟨2, ![128, 384]⟩

abbrev nBuf : Space → Nat
  | .hbm => 79
  | .vmem => 0
  | .smem => 0
  | _ => 0

abbrev bufTy : (tb : Table) → Fin (tcTables nBuf tb) → BufTy
  | .hbm, ⟨0, _⟩ => ⟨S200000, .i32⟩
  | .hbm, ⟨1, _⟩ => ⟨S200000x256, .f32⟩
  | .hbm, ⟨2, _⟩ => ⟨S200000, .f32⟩
  | .hbm, ⟨3, _⟩ => ⟨S500000x128, .f32⟩
  | .hbm, ⟨4, _⟩ => ⟨S500000, .f32⟩
  | .hbm, ⟨5, _⟩ => ⟨S384x256, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x128, .f32⟩
  | .hbm, ⟨18, _⟩ => ⟨S256x384, .f32⟩
  | .hbm, ⟨19, _⟩ => ⟨S200000x384, .f32⟩
  | .hbm, ⟨20, _⟩ => ⟨S1x384, .f32⟩
  | .hbm, ⟨21, _⟩ => ⟨S200000x384, .f32⟩
  | .hbm, ⟨22, _⟩ => ⟨S200000x384, .f32⟩
  | .hbm, ⟨23, _⟩ => ⟨S128x384, .f32⟩
  | .hbm, ⟨24, _⟩ => ⟨S200000x384, .f32⟩
  | .hbm, ⟨25, _⟩ => ⟨S1x384, .f32⟩
  | .hbm, ⟨26, _⟩ => ⟨S200000x384, .f32⟩
  | .hbm, ⟨27, _⟩ => ⟨S200000x384, .f32⟩
  | .hbm, ⟨28, _⟩ => ⟨S200000x128, .f32⟩
  | .hbm, ⟨29, _⟩ => ⟨S200000x128, .f32⟩
  | .hbm, ⟨30, _⟩ => ⟨S200000x128, .f32⟩
  | .hbm, ⟨31, _⟩ => ⟨S200000x128, .f32⟩
  | .hbm, ⟨32, _⟩ => ⟨S200000x128, .f32⟩
  | .hbm, ⟨33, _⟩ => ⟨S200000x128, .f32⟩
  | .hbm, ⟨34, _⟩ => ⟨S200000x128, .f32⟩
  | .hbm, ⟨35, _⟩ => ⟨S200000x128, .f32⟩
  | .hbm, ⟨36, _⟩ => ⟨S200000x128, .f32⟩
  | .hbm, ⟨37, _⟩ => ⟨S_, .f32⟩
  | .hbm, ⟨38, _⟩ => ⟨S200000x128, .f32⟩
  | .hbm, ⟨39, _⟩ => ⟨S200000x128, .f32⟩
  | .hbm, ⟨40, _⟩ => ⟨S_, .f32⟩
  | .hbm, ⟨41, _⟩ => ⟨S200000x128, .f32⟩
  | .hbm, ⟨42, _⟩ => ⟨S200000x128, .f32⟩
  | .hbm, ⟨43, _⟩ => ⟨S200000x128, .f32⟩
  | .hbm, ⟨44, _⟩ => ⟨S200000x128, .f32⟩
  | .hbm, ⟨45, _⟩ => ⟨S200000x128, .f32⟩
  | .hbm, ⟨46, _⟩ => ⟨S_, .f32⟩
  | .hbm, ⟨47, _⟩ => ⟨S200000x128, .f32⟩
  | .hbm, ⟨48, _⟩ => ⟨S200000x128, .f32⟩
  | .hbm, ⟨49, _⟩ => ⟨S_, .f32⟩
  | .hbm, ⟨50, _⟩ => ⟨S200000x128, .f32⟩
  | .hbm, ⟨51, _⟩ => ⟨S200000x128, .f32⟩
  | .hbm, ⟨52, _⟩ => ⟨S200000x128, .f32⟩
  | .hbm, ⟨53, _⟩ => ⟨S200000x128, .f32⟩
  | .hbm, ⟨54, _⟩ => ⟨S200000x128, .f32⟩
  | .hbm, ⟨55, _⟩ => ⟨S_, .f32⟩
  | .hbm, ⟨56, _⟩ => ⟨S200000x128, .f32⟩
  | .hbm, ⟨57, _⟩ => ⟨S200000x128, .f32⟩
  | .hbm, ⟨58, _⟩ => ⟨S200000x128, .f32⟩
  | .hbm, ⟨59, _⟩ => ⟨S200000x128, .f32⟩
  | .hbm, ⟨60, _⟩ => ⟨S200000x128, .f32⟩
  | .hbm, ⟨61, _⟩ => ⟨S_, .i32⟩
  | .hbm, ⟨62, _⟩ => ⟨S200000, .i32⟩
  | .hbm, ⟨63, _⟩ => ⟨S200000, .i1⟩
  | .hbm, ⟨64, _⟩ => ⟨S_, .i32⟩
  | .hbm, ⟨65, _⟩ => ⟨S200000, .i32⟩
  | .hbm, ⟨66, _⟩ => ⟨S200000, .i32⟩
  | .hbm, ⟨67, _⟩ => ⟨S200000, .i32⟩
  | .hbm, ⟨68, _⟩ => ⟨S200000x1, .i32⟩
  | .hbm, ⟨69, _⟩ => ⟨S500000x128, .f32⟩
  | .hbm, ⟨70, _⟩ => ⟨S_, .i32⟩
  | .hbm, ⟨71, _⟩ => ⟨S200000, .i32⟩
  | .hbm, ⟨72, _⟩ => ⟨S200000, .i1⟩
  | .hbm, ⟨73, _⟩ => ⟨S_, .i32⟩
  | .hbm, ⟨74, _⟩ => ⟨S200000, .i32⟩
  | .hbm, ⟨75, _⟩ => ⟨S200000, .i32⟩
  | .hbm, ⟨76, _⟩ => ⟨S200000, .i32⟩
  | .hbm, ⟨77, _⟩ => ⟨S200000x1, .i32⟩
  | .hbm, ⟨78, _⟩ => ⟨S500000, .f32⟩
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_c_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  transposes_S384x256_S256x384_1_0 : S384x256.Transposes [1, 0] S256x384
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  transposes_S384x128_S128x384_1_0 : S384x128.Transposes [1, 0] S128x384
  slices_S200000x384_S200000x128_0_0 : S200000x384.Slices ![0, 0] S200000x128
  slices_S200000x384_S200000x128_0_128 : S200000x384.Slices ![0, 128] S200000x128
  slices_S200000x384_S200000x128_0_256 : S200000x384.Slices ![0, 256] S200000x128
  bcast_S_S200000x128 : S_.BroadcastsInDim S200000x128 (![] : Fin 0 → Fin S200000x128.rank)
  gather_S500000x128_S200000x1_S200000x128_1_0_n_n_0_1_1128_wf : GatherDims.WF S500000x128 S200000x1 S200000x128 [1] [0] [] [0] [] 1 ![1, 128]
  dot_S200000x256_S256x384_S200000x384_1_0_0_1_n_n_wf : DotDims.WF S200000x256 S256x384 S200000x384 [1] [0] [0] [1] [] []
  dot_S200000x128_S128x384_S200000x384_1_0_0_1_n_n_wf : DotDims.WF S200000x128 S128x384 S200000x384 [1] [0] [0] [1] [] []
  scatter_S500000x128_S200000x1_S200000x128_1_0_0_1_wf : ScatterDims.WF S500000x128 S200000x1 S200000x128 [1] [0] [0] 1
  scatter_S500000_S200000x1_S200000_n_0_0_1_wf : ScatterDims.WF S500000 S200000x1 S200000 [] [0] [0] 1

variable [Facts₀]

def gather_S500000x128_S200000x1_S200000x128_1_0_n_n_0_1_1128 : GatherDims S500000x128 S200000x1 S200000x128 where
  offsetDims := [1]
  collapsedSliceDims := [0]
  operandBatchingDims := []
  startIndicesBatchingDims := []
  startIndexMap := [0]
  indexVectorDim := 1
  sliceSizes := ![1, 128]
  wf := gather_S500000x128_S200000x1_S200000x128_1_0_n_n_0_1_1128_wf
def dot_S200000x256_S256x384_S200000x384_1_0_0_1_n_n : DotDims S200000x256 S256x384 S200000x384 where
  lhsContracting := [1]
  rhsContracting := [0]
  lhsNonContracting := [0]
  rhsNonContracting := [1]
  lhsBatch := []
  rhsBatch := []
  wf := dot_S200000x256_S256x384_S200000x384_1_0_0_1_n_n_wf
def dot_S200000x128_S128x384_S200000x384_1_0_0_1_n_n : DotDims S200000x128 S128x384 S200000x384 where
  lhsContracting := [1]
  rhsContracting := [0]
  lhsNonContracting := [0]
  rhsNonContracting := [1]
  lhsBatch := []
  rhsBatch := []
  wf := dot_S200000x128_S128x384_S200000x384_1_0_0_1_n_n_wf
def scatter_S500000x128_S200000x1_S200000x128_1_0_0_1 : ScatterDims S500000x128 S200000x1 S200000x128 where
  updateWindowDims := [1]
  insertedWindowDims := [0]
  scatterDimsToOperandDims := [0]
  indexVectorDim := 1
  wf := scatter_S500000x128_S200000x1_S200000x128_1_0_0_1_wf
def scatter_S500000_S200000x1_S200000_n_0_0_1 : ScatterDims S500000 S200000x1 S200000 where
  updateWindowDims := []
  insertedWindowDims := [0]
  scatterDimsToOperandDims := [0]
  indexVectorDim := 1
  wf := scatter_S500000_S200000x1_S200000_n_0_0_1_wf

class Facts : Prop extends Facts₀ where

variable [Facts]
-- ==== Proof.GruSpec.lean ====
/-
  One row of a gated recurrent cell, over the extended reals.

  For an input row x (256 entries), a state row h (128 entries), weight matrices wi (256 × 384) and wh (128 × 384) and
  bias rows bi, bh (384 entries each), the two affine layers are

      gi(o) = (∑ k, x(k) · wi(k, o)) + bi(o),      gh(o) = (∑ k, h(k) · wh(k, o)) + bh(o),      o < 384,

  whose 384 columns are three gates of 128 columns each (columns j, 128 + j, 256 + j belong to entry j). With σ the
  logistic function the new state's entry j is

      r = σ(gi(j) + gh(j)),   z = σ(gi(128 + j) + gh(128 + j)),   n = tanh(gi(256 + j) + r · gh(256 + j)),
      h'(j) = (1 − z) · n + z · h(j).

  Everything is a function of plain finite indices: no array shape and no program is mentioned here.
-/
import Idealize.ShloMosaic.PureOps.Ideal

noncomputable section

open scoped BigOperators

namespace Cert.Gru

open Idealize.ShloMosaic

/-- One affine layer at output column `o`: the row against column `o` of the weights, plus the bias there. -/
def pre {a : ℕ} (x : Fin a → EReal) (w : Fin a → Fin 384 → EReal) (b : Fin 384 → EReal) (o : Fin 384) : EReal :=
  (∑ k : Fin a, x k * w k o) + b o

/-- Entry `j`'s column in the first gate (the reset gate): column `j`. -/
def col0 (j : Fin 128) : Fin 384 := ⟨j.val, by have := j.isLt; omega⟩
/-- Entry `j`'s column in the second gate (the update gate): column `128 + j`. -/
def col1 (j : Fin 128) : Fin 384 := ⟨128 + j.val, by have := j.isLt; omega⟩
/-- Entry `j`'s column in the third gate (the candidate state): column `256 + j`. -/
def col2 (j : Fin 128) : Fin 384 := ⟨256 + j.val, by have := j.isLt; omega⟩

theorem col0_val (j : Fin 128) : (col0 j).val = 0 + j.val := (Nat.zero_add _).symm
theorem col1_val (j : Fin 128) : (col1 j).val = 128 + j.val := rfl
theorem col2_val (j : Fin 128) : (col2 j).val = 256 + j.val := rfl

/-- The new state's entry `j` from the two affine layers `gi`, `gh` and the old state's entry `hj`. -/
def mix (gi gh : Fin 384 → EReal) (hj : EReal) (j : Fin 128) : EReal :=
  (1 - Ideal.logistic (gi (col1 j) + gh (col1 j)))
      * Ideal.tanh (gi (col2 j) + Ideal.logistic (gi (col0 j) + gh (col0 j)) * gh (col2 j))
    + Ideal.logistic (gi (col1 j) + gh (col1 j)) * hj

/-- The new state's entry `j` of one row. -/
def cell (x : Fin 256 → EReal) (h : Fin 128 → EReal) (wi : Fin 256 → Fin 384 → EReal) (wh : Fin 128 → Fin 384 → EReal)
    (bi bh : Fin 384 → EReal) (j : Fin 128) : EReal :=
  mix (pre x wi bi) (pre h wh bh) (h j) j

end Cert.Gru

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.RefCell.lean ====
/-
  The reference's updated rows, read at one entry.

  The reference multiplies all 200000 input rows and all 200000 gathered state rows into the transposed weight
  matrices at once, adds the bias rows, cuts the 384 columns into the three gates and combines them entry by entry, the
  logistic function spelt as 1 / (1 + exp(−x)). At the ideal values each product is the plain sum over the contraction
  index and that quotient IS the logistic function, so entry (i, q) of the updated rows is the recurrent cell's entry q
  of input row i and gathered state row i.
-/
import proofs.«121281_j81570018885819_2_alg».proof.Proof.Gen.ReferenceIdeal.Read
import proofs.«121281_j81570018885819_2_alg».proof.Proof.GruSpec
import proofs.«121281_j81570018885819_2_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Cell

open Cert.ReferenceIdeal Cert.ReferenceIdeal.Gen Cert.ReferenceIdeal.Read Idealize.ShloMosaic Idealize.ShloMosaic.ValueIdx

/-- One affine layer of the reference, at row `i` and output column `o`: the host's product is the sum over the
    contraction index, and the bias row, laid out as a 1 × 384 matrix and repeated down the rows, reads its entry `o`. -/
theorem host_layer_apply {n a : ℕ} (d : DotDims ⟨2, ![n, a]⟩ ⟨2, ![a, 384]⟩ ⟨2, ![n, 384]⟩)
    (hd : d = DotDims.plain n a 384)
    (x : FVec Ideal ⟨2, ![n, a]⟩ .f32) (w : FVec Ideal ⟨2, ![a, 384]⟩ .f32) (b : FVec Ideal ⟨1, ![384]⟩ .f32)
    (h1 : (⟨1, ![384]⟩ : Shape).BroadcastsInDim ⟨2, ![1, 384]⟩ ![1])
    (h2 : (⟨2, ![1, 384]⟩ : Shape).BroadcastsInDim ⟨2, ![n, 384]⟩ ![0, 1])
    (i : Fin n) (o : Fin 384) :
    addf (Host.dotGeneral d none x w)
        (broadcastInDim (s := ⟨2, ![1, 384]⟩) ⟨2, ![n, 384]⟩ ![0, 1] h2
          (broadcastInDim (s := ⟨1, ![384]⟩) ⟨2, ![1, 384]⟩ ![1] h1 b)) (ix2 i o)
      = Gru.pre (fun k => x (ix2 i k)) (fun k o => w (ix2 k o)) (fun o => b (ix1 o)) o := by
  subst hd
  show Host.dotGeneral _ none x w (ix2 i o) + broadcastInDim (s := ⟨2, ![1, 384]⟩) _ ![0, 1] h2 _ (ix2 i o) = _
  rw [LibPlainDot.dotGeneral_apply,
    broadcastInDim_apply ![0, 1] h2 _ (ix2 i o) (ix2 (0 : Fin 1) o) (fun c => match c with
      | ⟨0, _⟩ => by show 0 = if (1 : Nat) = 1 then 0 else i.val; rw [if_pos rfl]
      | ⟨1, _⟩ => by show o.val = if (384 : Nat) = 1 then 0 else o.val; rw [if_neg (by decide)]),
    broadcastInDim_apply ![1] h1 b (ix2 (0 : Fin 1) o) (ix1 o) (fun c => match c with
      | ⟨0, _⟩ => by show o.val = if (384 : Nat) = 1 then 0 else o.val; rw [if_neg (by decide)])]
  rfl

/-- The constant one, laid out over the updated rows' shape, reads 1 everywhere. -/
theorem one_apply (h : (⟨0, ![]⟩ : Shape).BroadcastsInDim S200000x128 ![]) (j : S200000x128.Idx) :
    broadcastInDim S200000x128 ![] h (constant (F := Ideal) S_ .f32 0x3F800000#32) j = 1 := by
  rw [broadcastInDim_scalar_apply]
  exact Ideal.ofBits_one_f32

/-- Entry (i, q) of the reference's updated rows: the recurrent cell's entry `q` of input row `i` and of row `i` of the
    gathered state rows, with the transposed weights and the biases. -/
theorem updated_apply (x0 : (⟨S200000, .i32⟩ : BufTy).Contents (Elt Ideal))
    (x1 : (⟨S200000x256, .f32⟩ : BufTy).Contents (Elt Ideal)) (x3 : (⟨S500000x128, .f32⟩ : BufTy).Contents (Elt Ideal))
    (x5 : (⟨S384x256, .f32⟩ : BufTy).Contents (Elt Ideal)) (x6 : (⟨S384x128, .f32⟩ : BufTy).Contents (Elt Ideal))
    (x7 x8 : (⟨S384, .f32⟩ : BufTy).Contents (Elt Ideal)) (i : Fin 200000) (q : Fin 128) :
    val_main_v44 (F := Ideal) x0 x1 x3 x5 x6 x7 x8 (ix2 i q)
      = Gru.cell (fun k => x1 (ix2 i k)) (fun k => val_main_v6 (F := Ideal) x0 x3 (ix2 i k))
          (fun k o => val_main_v7 (F := Ideal) x5 (ix2 k o)) (fun k o => val_main_v12 (F := Ideal) x6 (ix2 k o))
          (fun o => x7 (ix1 o)) (fun o => x8 (ix1 o)) q := by
  have hgi : ∀ o : Fin 384, val_main_v11 (F := Ideal) x1 x5 x7 (ix2 i o)
      = Gru.pre (fun k => x1 (ix2 i k)) (fun k o => val_main_v7 (F := Ideal) x5 (ix2 k o)) (fun o => x7 (ix1 o)) o :=
    fun o => by
      unfold val_main_v11 val_main_v8 val_main_v10 val_main_v9
      exact host_layer_apply _ rfl x1 (val_main_v7 (F := Ideal) x5) x7 _ _ i o
  have hgh : ∀ o : Fin 384, val_main_v16 (F := Ideal) x0 x3 x6 x8 (ix2 i o)
      = Gru.pre (fun k => val_main_v6 (F := Ideal) x0 x3 (ix2 i k)) (fun k o => val_main_v12 (F := Ideal) x6 (ix2 k o))
          (fun o => x8 (ix1 o)) o :=
    fun o => by
      unfold val_main_v16 val_main_v13 val_main_v15 val_main_v14
      exact host_layer_apply _ rfl (val_main_v6 (F := Ideal) x0 x3) (val_main_v12 (F := Ideal) x6) x8 _ _ i o
  have s17 : val_main_v17 (F := Ideal) x1 x5 x7 (ix2 i q) = val_main_v11 (F := Ideal) x1 x5 x7 (ix2 i (Gru.col0 q)) := by
    unfold val_main_v17; exact slice2_axis1_apply 0 _ _ i q _ (Gru.col0_val q)
  have s18 : val_main_v18 (F := Ideal) x1 x5 x7 (ix2 i q) = val_main_v11 (F := Ideal) x1 x5 x7 (ix2 i (Gru.col1 q)) := by
    unfold val_main_v18; exact slice2_axis1_apply 128 _ _ i q _ (Gru.col1_val q)
  have s19 : val_main_v19 (F := Ideal) x1 x5 x7 (ix2 i q) = val_main_v11 (F := Ideal) x1 x5 x7 (ix2 i (Gru.col2 q)) := by
    unfold val_main_v19; exact slice2_axis1_apply 256 _ _ i q _ (Gru.col2_val q)
  have s20 : val_main_v20 (F := Ideal) x0 x3 x6 x8 (ix2 i q) = val_main_v16 (F := Ideal) x0 x3 x6 x8 (ix2 i (Gru.col0 q)) := by
    unfold val_main_v20; exact slice2_axis1_apply 0 _ _ i q _ (Gru.col0_val q)
  have s21 : val_main_v21 (F := Ideal) x0 x3 x6 x8 (ix2 i q) = val_main_v16 (F := Ideal) x0 x3 x6 x8 (ix2 i (Gru.col1 q)) := by
    unfold val_main_v21; exact slice2_axis1_apply 128 _ _ i q _ (Gru.col1_val q)
  have s22 : val_main_v22 (F := Ideal) x0 x3 x6 x8 (ix2 i q) = val_main_v16 (F := Ideal) x0 x3 x6 x8 (ix2 i (Gru.col2 q)) := by
    unfold val_main_v22; exact slice2_axis1_apply 256 _ _ i q _ (Gru.col2_val q)
  have o26 : val_main_v26 (F := Ideal) (ix2 i q) = 1 := by unfold val_main_v26 val_main_cst; exact one_apply _ _
  have o28 : val_main_v28 (F := Ideal) (ix2 i q) = 1 := by unfold val_main_v28 val_main_cst_1; exact one_apply _ _
  have o33 : val_main_v33 (F := Ideal) (ix2 i q) = 1 := by unfold val_main_v33 val_main_cst_2; exact one_apply _ _
  have o35 : val_main_v35 (F := Ideal) (ix2 i q) = 1 := by unfold val_main_v35 val_main_cst_3; exact one_apply _ _
  have o40 : val_main_v40 (F := Ideal) (ix2 i q) = 1 := by unfold val_main_v40 val_main_cst_4; exact one_apply _ _
  simp only [val_main_v44_apply, val_main_v43_apply, val_main_v42_apply, val_main_v41_apply, val_main_v39_apply,
    val_main_v38_apply, val_main_v37_apply, val_main_v36_apply, val_main_v34_apply, val_main_v32_apply,
    val_main_v31_apply, val_main_v30_apply, val_main_v29_apply, val_main_v27_apply, val_main_v25_apply,
    val_main_v24_apply, val_main_v23_apply, s17, s18, s19, s20, s21, s22, o26, o28, o33, o35, o40, hgi, hgh,
    Ideal.addf_def, Ideal.subf_def, Ideal.mulf_def, Ideal.hostDivf_def, Ideal.hostNegf_def, Ideal.negf_def,
    Ideal.hostUnary_exp_def, Ideal.hostUnary_tanh_def, Gru.cell, Gru.mix, Ideal.logistic]

end Cert.ReferenceIdeal.Cell

end
-- ==== Proof.KernelCell.lean ====
/-
  What the kernel's body stores, read at one entry.

  The body loads a block of 1024 input rows (256 wide), the 1024 matching state rows (128 wide), the two weight
  matrices (256 × 384 and 128 × 384) and the two bias rows, multiplies the rows into the weights, adds the biases, and
  combines the three gates of 128 columns entry by entry. At the ideal values the rounding of the matrix products'
  operands is the identity and each product into the zero accumulator is the plain sum over the contraction index, so
  the stored block's entry (p, q) is the recurrent cell's entry q of row p of the two row blocks.
-/
import proofs.«121281_j81570018885819_2_alg».proof.Proof.Gen.KernelIdeal.Skeleton
import proofs.«121281_j81570018885819_2_alg».proof.Proof.GruSpec
import proofs.«121281_j81570018885819_2_alg».proof.Proof.LibPlainDot
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Cell

open Cert.KernelIdeal Cert.KernelIdeal.Gen Idealize.ShloMosaic Idealize.ShloMosaic.ValueIdx

/-- One affine layer of the block, at row `p` and output column `o`: the matrix product into the zero accumulator is
    the sum over the contraction index, and the bias row, viewed as a 1 × 384 matrix and repeated down the 1024 rows,
    reads its entry `o`. -/
theorem layer_apply {a : ℕ} (d : DotDims ⟨2, ![1024, a]⟩ ⟨2, ![a, 384]⟩ ⟨2, ![1024, 384]⟩)
    (hd : d = DotDims.plain 1024 a 384)
    (x : FVec Ideal ⟨2, ![1024, a]⟩ .bf16) (w : FVec Ideal ⟨2, ![a, 384]⟩ .bf16) (b : FVec Ideal ⟨1, ![384]⟩ .f32)
    (h1 : (⟨1, ![384]⟩ : Shape).ShapeCasts ⟨2, ![1, 384]⟩) (h2 : (⟨2, ![1, 384]⟩ : Shape).Broadcasts ⟨2, ![1024, 384]⟩)
    (p : Fin 1024) (o : Fin 384) :
    matmul d none x w (constant (F := Ideal) ⟨2, ![1024, 384]⟩ .f32 0x00000000#32) (ix2 p o)
        + broadcastTo ⟨2, ![1024, 384]⟩ (shapeCast ⟨2, ![1, 384]⟩ b h1) h2 (ix2 p o)
      = Gru.pre (fun k => x (ix2 p k)) (fun k o => w (ix2 k o)) (fun o => b (ix1 o)) o := by
  subst hd
  rw [broadcastTo_1b_ab_apply, shapeCast_a_1a_apply]
  unfold Gru.pre
  exact congrArg (· + b (ix1 o))
    ((Ideal.matmul_constant_zero_apply _ none x w (ix2 p o)).trans (LibPlainDot.sum_contr x w p o))

theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl

/-- The stored block at entry (p, q): the recurrent cell's entry `q` of row `p` of the loaded input and state blocks,
    with the loaded weights and biases. -/
theorem pay_apply (x0 : Vec Ideal S1024x256 .f32) (x1 : Vec Ideal S1024x128 .f32) (x2 : Vec Ideal S256x384 .bf16)
    (x3 : Vec Ideal S128x384 .bf16) (x4 x5 : Vec Ideal S384 .f32) (p : Fin 1024) (q : Fin 128) :
    k0_pay1 x0 x1 x2 x3 x4 x5 (ix2 p q)
      = Gru.cell (fun k => x0 (ix2 p k)) (fun k => x1 (ix2 p k)) (fun k o => x2 (ix2 k o)) (fun k o => x3 (ix2 k o))
          (fun o => x4 (ix1 o)) (fun o => x5 (ix1 o)) q := by
  unfold k0_pay1
  simp only [shapeCast_self]
  simp only [addf_apply, mulf_apply, subf_apply, broadcast_apply, logistic_apply, tanh_apply,
    slice2_axis1_apply 0 _ _ p q (Gru.col0 q) (Gru.col0_val q),
    slice2_axis1_apply 128 _ _ p q (Gru.col1 q) (Gru.col1_val q),
    slice2_axis1_apply 256 _ _ p q (Gru.col2 q) (Gru.col2_val q)]
  have hgi : ∀ o : Fin 384,
      matmul dot_S1024x256_S256x384_S1024x384_1_0_0_1_n_n none (truncf .bf16 x0 bitsLt_bf16_f32) x2
          (constant (F := Ideal) S1024x384 .f32 0x00000000#32) (ix2 p o)
        + broadcastTo S1024x384 (shapeCast S1x384 x4 shapeCasts_S384_S1x384) broadcasts_S1x384_S1024x384 (ix2 p o)
        = Gru.pre (fun k => x0 (ix2 p k)) (fun k o => x2 (ix2 k o)) (fun o => x4 (ix1 o)) o :=
    fun o => layer_apply _ rfl (truncf .bf16 x0 bitsLt_bf16_f32) x2 x4 _ _ p o
  have hgh : ∀ o : Fin 384,
      matmul dot_S1024x128_S128x384_S1024x384_1_0_0_1_n_n none (truncf .bf16 x1 bitsLt_bf16_f32) x3
          (constant (F := Ideal) S1024x384 .f32 0x00000000#32) (ix2 p o)
        + broadcastTo S1024x384 (shapeCast S1x384 x5 shapeCasts_S384_S1x384) broadcasts_S1x384_S1024x384 (ix2 p o)
        = Gru.pre (fun k => x1 (ix2 p k)) (fun k o => x3 (ix2 k o)) (fun o => x5 (ix1 o)) o :=
    fun o => layer_apply _ rfl (truncf .bf16 x1 bitsLt_bf16_f32) x3 x5 _ _ p o
  simp only [hgi, hgh, Ideal.ofBits_def, Ideal.ofBits_one_f32, Gru.cell, Gru.mix]

end Cert.KernelIdeal.Cell

end
-- ==== Proof.KernelBlocks.lean ====
/-
  From the blocks the kernel writes back to its whole result array.

  The grid has 196 points; point t stages rows 1024·t … 1024·t + 1023 of the padded input rows and of the padded state
  rows, the two weight matrices and the two bias rows whole, and writes back rows 1024·t … 1024·t + 1023 of the result.
  What it writes back is, entry by entry, the recurrent cell of the staged rows, so it is block t of ONE function of the
  staged arrays: row r of the result is the cell of row r of the padded inputs and row r of the padded states. The 196
  blocks tile the 200704 rows, so after the run the result array is that function.
-/
import proofs.«121281_j81570018885819_2_alg».proof.Proof.Gen.KernelIdeal.Frame
import proofs.«121281_j81570018885819_2_alg».proof.Proof.KernelCell
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The row and the column of an entry of the result array. -/
def row (i : S200704x128.Idx) : Fin 200704 := ⟨(i 0).val, (i 0).isLt⟩
def col (i : S200704x128.Idx) : Fin 128 := ⟨(i 1).val, (i 1).isLt⟩

/-- The result array as one function of the arrays the windows stage: entry (r, q) is the recurrent cell's entry `q`
    of row `r` of the padded inputs and of the padded states. -/
def result (c : Dev nD) : S200704x128.Idx → EReal := fun i =>
  Gru.cell (fun k => (V m c main_call0_v7 : S200704x256.Idx → EReal) (ix2 (row i) k))
    (fun k => (V m c main_call0_v8 : S200704x128.Idx → EReal) (ix2 (row i) k))
    (fun k o => (V m c main_call0_v10 : S256x384.Idx → EReal) (ix2 k o))
    (fun k o => (V m c main_call0_v12 : S128x384.Idx → EReal) (ix2 k o))
    (fun o => (V m c main_arg7 : S384.Idx → EReal) (ix1 o))
    (fun o => (V m c main_arg8 : S384.Idx → EReal) (ix1 o)) (col i)

/-- The printed index maps over the grid: the row blocks move with the point, everything else stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

/-- The staged input block at point `t`: rows 1024·t … of the padded input rows. -/
theorem inputBlock (c : Dev nD) (t : Fin cfg0.N) (p : Fin 1024) (k : Fin 256) (r : Fin 200704)
    (hr : r.val = t.val * 1024 + p.val) :
    (iblk m c 0 t : Vec Ideal S1024x256 .f32) (ix2 p k) = (V m c main_call0_v7 : S200704x256.Idx → EReal) (ix2 r k) := by
  obtain ⟨e0, e1, -⟩ := idx_facts t
  unfold iblk
  rw [View.read_apply]
  show V m c main_call0_v7 _ = V m c main_call0_v7 _
  refine congrArg (V m c main_call0_v7) (funext fun a => Fin.ext ?_)
  match a with
  | ⟨0, _⟩ => show win0_0.index t 0 * 1024 + 1 * p.val = r.val; rw [e0, hr]; omega
  | ⟨1, _⟩ => show win0_0.index t 1 * 256 + 1 * k.val = k.val; rw [e1]; omega

/-- The staged state block at point `t`: rows 1024·t … of the padded state rows. -/
theorem stateBlock (c : Dev nD) (t : Fin cfg0.N) (p : Fin 1024) (k : Fin 128) (r : Fin 200704)
    (hr : r.val = t.val * 1024 + p.val) :
    (iblk m c 1 t : Vec Ideal S1024x128 .f32) (ix2 p k) = (V m c main_call0_v8 : S200704x128.Idx → EReal) (ix2 r k) := by
  obtain ⟨-, -, e0, e1, -⟩ := idx_facts t
  unfold iblk
  rw [View.read_apply]
  show V m c main_call0_v8 _ = V m c main_call0_v8 _
  refine congrArg (V m c main_call0_v8) (funext fun a => Fin.ext ?_)
  match a with
  | ⟨0, _⟩ => show win0_1.index t 0 * 1024 + 1 * p.val = r.val; rw [e0, hr]; omega
  | ⟨1, _⟩ => show win0_1.index t 1 * 128 + 1 * k.val = k.val; rw [e1]; omega

/-- The staged input weights at every point: the whole matrix. -/
theorem inputWeightBlock (c : Dev nD) (t : Fin cfg0.N) (k : Fin 256) (o : Fin 384) :
    (iblk m c 2 t : Vec Ideal S256x384 .bf16) (ix2 k o) = (V m c main_call0_v10 : S256x384.Idx → EReal) (ix2 k o) := by
  obtain ⟨-, -, -, -, e0, e1, -⟩ := idx_facts t
  unfold iblk
  rw [View.read_apply]
  show V m c main_call0_v10 _ = V m c main_call0_v10 _
  refine congrArg (V m c main_call0_v10) (funext fun a => Fin.ext ?_)
  match a with
  | ⟨0, _⟩ => show win0_2.index t 0 * 256 + 1 * k.val = k.val; rw [e0]; omega
  | ⟨1, _⟩ => show win0_2.index t 1 * 384 + 1 * o.val = o.val; rw [e1]; omega

/-- The staged state weights at every point: the whole matrix. -/
theorem stateWeightBlock (c : Dev nD) (t : Fin cfg0.N) (k : Fin 128) (o : Fin 384) :
    (iblk m c 3 t : Vec Ideal S128x384 .bf16) (ix2 k o) = (V m c main_call0_v12 : S128x384.Idx → EReal) (ix2 k o) := by
  obtain ⟨-, -, -, -, -, -, e0, e1, -⟩ := idx_facts t
  unfold iblk
  rw [View.read_apply]
  show V m c main_call0_v12 _ = V m c main_call0_v12 _
  refine congrArg (V m c main_call0_v12) (funext fun a => Fin.ext ?_)
  match a with
  | ⟨0, _⟩ => show win0_3.index t 0 * 128 + 1 * k.val = k.val; rw [e0]; omega
  | ⟨1, _⟩ => show win0_3.index t 1 * 384 + 1 * o.val = o.val; rw [e1]; omega

/-- The staged input bias at every point: the whole row. -/
theorem inputBiasBlock (c : Dev nD) (t : Fin cfg0.N) (o : Fin 384) :
    (iblk m c 4 t : Vec Ideal S384 .f32) (ix1 o) = (V m c main_arg7 : S384.Idx → EReal) (ix1 o) := by
  obtain ⟨-, -, -, -, -, -, -, -, e0, -⟩ := idx_facts t
  unfold iblk
  rw [View.read_apply]
  show V m c main_arg7 _ = V m c main_arg7 _
  refine congrArg (V m c main_arg7) (funext fun a => Fin.ext ?_)
  match a with
  | ⟨0, _⟩ => show win0_4.index t 0 * 384 + 1 * o.val = o.val; rw [e0]; omega

/-- The staged state bias at every point: the whole row. -/
theorem stateBiasBlock (c : Dev nD) (t : Fin cfg0.N) (o : Fin 384) :
    (iblk m c 5 t : Vec Ideal S384 .f32) (ix1 o) = (V m c main_arg8 : S384.Idx → EReal) (ix1 o) := by
  obtain ⟨-, -, -, -, -, -, -, -, -, e0, -⟩ := idx_facts t
  unfold iblk
  rw [View.read_apply]
  show V m c main_arg8 _ = V m c main_arg8 _
  refine congrArg (V m c main_arg8) (funext fun a => Fin.ext ?_)
  match a with
  | ⟨0, _⟩ => show win0_5.index t 0 * 384 + 1 * o.val = o.val; rw [e0]; omega

/-- What point `t` writes back is block `t` of `result`. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero hz2]
  simp only [View.ld_unit_zero (S := S1024x256) hz2, View.ld_unit_zero (S := S1024x128) hz2,
    View.ld_unit_zero (S := S256x384) hz2, View.ld_unit_zero (S := S128x384) hz2, View.ld_unit_zero (S := S384) hz1]
  obtain ⟨-, -, -, -, -, -, -, -, -, -, e0, e1⟩ := idx_facts t
  funext y
  obtain ⟨p, q, rfl⟩ : ∃ (p : Fin 1024) (q : Fin 128), y = ix2 p q := ⟨y 0, y 1, eq_ix2 y⟩
  show k0_pay1 (iblk m c 0 t) (iblk m c 1 t) (iblk m c 2 t) (iblk m c 3 t) (iblk m c 4 t) (iblk m c 5 t) (ix2 p q)
    = result m c (((cfg0.win 6).blk t).view.emb (ix2 p q))
  refine (Cell.pay_apply (iblk m c 0 t) (iblk m c 1 t) (iblk m c 2 t) (iblk m c 3 t) (iblk m c 4 t) (iblk m c 5 t) p q).trans ?_
  have hr : (row (((cfg0.win 6).blk t).view.emb (ix2 p q))).val = t.val * 1024 + p.val := by
    show win0_6.index t 0 * 1024 + 1 * p.val = _
    rw [e0]; omega
  have hc : col (((cfg0.win 6).blk t).view.emb (ix2 p q)) = q := Fin.ext (by
    show win0_6.index t 1 * 128 + 1 * q.val = q.val
    rw [e1]; omega)
  unfold result
  rw [hc]
  rw [funext fun k => inputBlock m c t p k _ hr, funext fun k => stateBlock m c t p k _ hr,
    funext fun k => funext fun o => inputWeightBlock m c t k o,
    funext fun k => funext fun o => stateWeightBlock m c t k o,
    funext fun o => inputBiasBlock m c t o, funext fun o => stateBiasBlock m c t o]

/-- An entry of the result array is in point `t`'s block iff each coordinate is in the block's range. -/
theorem mem_blk (t : Fin cfg0.N) (i : S200704x128.Idx) :
    i ∈ ((cfg0.win 6).blk t).view.set ↔ ∀ a : Fin 2, win0_6.index t a * S1024x128.size a ≤ (i a).val
      ∧ (i a).val < win0_6.index t a * S1024x128.size a + S1024x128.size a := by
  show i ∈ ((View.whole main_call0_v13).slice (win0_6.rect t)).set ↔ _
  rw [View.set_slice_whole, Rect.mem_set_unit]
  exact Iff.rfl

/-- Every entry of the result array lies in the block of the point its row selects. -/
theorem cover (i : S200704x128.Idx) :
    ∃ t : Fin cfg0.N, (cfg0.win 6).flush t = true ∧ i ∈ ((cfg0.win 6).blk t).view.set := by
  have hi0 : (i 0).val < 200704 := (i 0).isLt
  have hi1 : (i 1).val < 128 := (i 1).isLt
  have hN : cfg0.N = 196 := N_0
  let t : Fin cfg0.N := ⟨(i 0).val / 1024, by rw [hN]; omega⟩
  obtain ⟨-, -, -, -, -, -, -, -, -, -, e0, e1⟩ := idx_facts t
  have ht : t.val = (i 0).val / 1024 := rfl
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 128 ≤ (i 1).val ∧ (i 1).val < win0_6.index t (1 : Fin 2) * 128 + 128
    rw [e1]; omega

/-- The result array after the run. -/
theorem final (c : Dev nD) : (dats m 0 c).arrAt 6 cfg0.N = result m c :=
  (dats m 0 c).arrAt_eq_of_cover 6 (result m c) (fun t _ => flushed_eq m c t) cover

end Cert.KernelIdeal.Blocks

end
-- ==== Proof.HostArrays.lean ====
/-
  The arrays the kernel's windows find, and what the operations after the kernel make of its result.

  Before the kernel runs, the program pads the 200000 input rows and the 200000 gathered state rows with 704 rows of
  zeros (to 196 blocks of 1024 rows), and transposes the two weight matrices; the rows are gathered from the state
  table through the node ids, a negative id counted from the table's end. After the kernel, the first 200000 rows of
  its result are scattered into the state table through the same ids, and the time stamps into the time table.
-/
import proofs.«121281_j81570018885819_2_alg».proof.Proof.Gen.KernelIdeal.Frame
import Idealize.ShloMosaic.Lib.StableHlo.Run
import Idealize.ShloMosaic.PureOps.Ideal

noncomputable section

namespace Cert.KernelIdeal.Arrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The node ids as a column of row indices into the state table: a negative id has the table's 500000 rows added. -/
def idCol (x0 : (⟨S200000, .i32⟩ : BufTy).Contents (Elt Ideal)) : (⟨S200000x1, .i32⟩ : BufTy).Contents (Elt Ideal) :=
  broadcastInDim S200000x1 ![0] bcast_S200000_S200000x1_0
    (select (cmpi .slt x0 (broadcastInDim S200000 ![] bcast_S_S200000 (constantI S_ 32 0#32)))
      (addi x0 (broadcastInDim S200000 ![] bcast_S_S200000 (constantI S_ 32 500000#32))) x0)

/-- The state rows the node ids select. -/
def gathered (x0 : (⟨S200000, .i32⟩ : BufTy).Contents (Elt Ideal)) (x3 : (⟨S500000x128, .f32⟩ : BufTy).Contents (Elt Ideal)) :
    (⟨S200000x128, .f32⟩ : BufTy).Contents (Elt Ideal) :=
  Host.gather gather_S500000x128_S200000x1_S200000x128_1_0_n_n_0_1_1128 x3 (idCol x0)

/-- The kernel's first window stages the input rows, padded. -/
theorem inputRows (c : Dev nD) : (V m c main_call0_v7 : S200704x256.Idx → EReal)
    = pad S200704x256 ![0, 0] ![704, 0] ![0, 0] (m ((c.tc : Thread nD τ).loc main_arg1))
        (sitofp (F := Ideal) .f32 (constantI S_ 32 0#32)) pads_S200000x256_S200704x256_07040_000 h_S_ := by
  show StableHlo.after hostOps0 (fun b => m (c, b)) (Proc.devRef .tc main_call0_v7) = _
  after_results
  rfl

/-- Its second window stages the gathered state rows, padded. -/
theorem stateRows (c : Dev nD) : (V m c main_call0_v8 : S200704x128.Idx → EReal)
    = pad S200704x128 ![0, 0] ![704, 0] ![0, 0]
        (gathered (m ((c.tc : Thread nD τ).loc main_arg0)) (m ((c.tc : Thread nD τ).loc main_arg3)))
        (sitofp (F := Ideal) .f32 (constantI S_ 32 0#32)) pads_S200000x128_S200704x128_07040_000 h_S_ := by
  show StableHlo.after hostOps0 (fun b => m (c, b)) (Proc.devRef .tc main_call0_v8) = _
  after_results
  rfl

/-- Its third window stages the input weights, transposed. -/
theorem inputWeights (c : Dev nD) : (V m c main_call0_v10 : S256x384.Idx → EReal)
    = transpose S256x384 [1, 0] (m ((c.tc : Thread nD τ).loc main_arg5)) transposes_S384x256_S256x384_1_0 := by
  show StableHlo.after hostOps0 (fun b => m (c, b)) (Proc.devRef .tc main_call0_v10) = _
  after_results
  rfl

/-- Its fourth window stages the state weights, transposed. -/
theorem stateWeights (c : Dev nD) : (V m c main_call0_v12 : S128x384.Idx → EReal)
    = transpose S128x384 [1, 0] (m ((c.tc : Thread nD τ).loc main_arg6)) transposes_S384x128_S128x384_1_0 := by
  show StableHlo.after hostOps0 (fun b => m (c, b)) (Proc.devRef .tc main_call0_v12) = _
  after_results
  rfl

/-- Contents carried to a buffer's own type and back are the contents. -/
theorem cast_cast_self {α β : Type} (h : α = β) (h' : β = α) (x : α) : cast h' (cast h x) = x := by
  subst h; rfl

set_option maxHeartbeats 1000000 in
/-- The operations after the kernel, from any contents `W` of the buffers: the first result is the state table with
    the first 200000 rows of the kernel's result scattered into it through the node ids. (Each buffer's contents are
    read at the tensor type the program gives the buffer, and the result is written at its buffer's.) -/
theorem tail_state (W : Valuation τ sig (Elt Ideal)) :
    StableHlo.after (hostOps1 (F := Ideal)) W (Proc.devRef .tc main_v0_0)
      = (TRef.of main_v0_0 : TRef sig ⟨S500000x128, .f32⟩).toBuf
          (Host.scatter scatter_S500000x128_S200000x1_S200000x128_1_0_0_1 (fun _ b => b)
            ((TRef.of main_arg3 : TRef sig ⟨S500000x128, .f32⟩).ofBuf (W (Proc.devRef .tc main_arg3)))
            (idCol ((TRef.of main_arg0 : TRef sig ⟨S200000, .i32⟩).ofBuf (W (Proc.devRef .tc main_arg0))))
            (extractStridedSlice S200000x128 ![0, 0]
              ((TRef.of main_call0_v13 : TRef sig ⟨S200704x128, .f32⟩).ofBuf (W (Proc.devRef .tc main_call0_v13)))
              slices_S200704x128_S200000x128_0_0)) := by
  after_results
  dsimp only [TRef.toBuf, TRef.ofBuf, TRef.of, idCol]
  simp only [cast_cast_self]

set_option maxHeartbeats 1000000 in
/-- The second result is the time table with the time stamps scattered into it through the node ids. -/
theorem tail_times (W : Valuation τ sig (Elt Ideal)) :
    StableHlo.after (hostOps1 (F := Ideal)) W (Proc.devRef .tc main_v0_1)
      = (TRef.of main_v0_1 : TRef sig ⟨S500000, .f32⟩).toBuf
          (Host.scatter scatter_S500000_S200000x1_S200000_n_0_0_1 (fun _ b => b)
            ((TRef.of main_arg4 : TRef sig ⟨S500000, .f32⟩).ofBuf (W (Proc.devRef .tc main_arg4)))
            (idCol ((TRef.of main_arg0 : TRef sig ⟨S200000, .i32⟩).ofBuf (W (Proc.devRef .tc main_arg0))))
            ((TRef.of main_arg2 : TRef sig ⟨S200000, .f32⟩).ofBuf (W (Proc.devRef .tc main_arg2)))) := by
  after_results
  dsimp only [TRef.toBuf, TRef.ofBuf, TRef.of, idCol]
  simp only [cast_cast_self]

end Cert.KernelIdeal.Arrays

end
-- ==== Proof.KernelRows.lean ====
/-
  The first 200000 rows of the kernel's result, read at one entry, as a function of the program's arguments.

  Row i < 200000 of the padded input rows is input row i, and row i of the padded state rows is the state row the node
  id i selects: the 704 rows of padding sit below them and are cut off again after the kernel. So entry (i, q) of the
  rows that are scattered back is the recurrent cell's entry q of input row i and gathered state row i, with the
  transposed weights and the biases.
-/
import proofs.«121281_j81570018885819_2_alg».proof.Proof.KernelBlocks
import proofs.«121281_j81570018885819_2_alg».proof.Proof.HostArrays
import Idealize.ShloMosaic.Lib.KernelVsHost
import Idealize.ShloMosaic.Lib.ValueLayout

noncomputable section

namespace Cert.KernelIdeal.Rows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Rows padded below, read at a row of the unpadded array. -/
theorem pad_rows_apply {n a : ℕ} (x : (⟨2, ![n, a]⟩ : Shape).Idx → EReal) {u : Shape} (v : u.Idx → EReal) {n' : ℕ}
    (h : (⟨2, ![n, a]⟩ : Shape).Pads ![0, 0] ![704, 0] ![0, 0] ⟨2, ![n', a]⟩) (hu : 0 < u.numel)
    (i : Fin n) (r : Fin n') (hr : r.val = i.val) (k : Fin a) :
    pad ⟨2, ![n', a]⟩ ![0, 0] ![704, 0] ![0, 0] x v h hu (ix2 r k) = x (ix2 i k) :=
  pad_apply_of_inside _ _ _ x v h hu (ix2 r k) (ix2 i k) fun c => match c with
    | ⟨0, _⟩ => by show r.val = 0 + i.val * (0 + 1); omega
    | ⟨1, _⟩ => by show k.val = 0 + k.val * (0 + 1); omega

/-- The rows that are scattered back into the state table. -/
def updated (c : Dev nD) : S200000x128.Idx → EReal :=
  extractStridedSlice S200000x128 ![0, 0] (Blocks.result m c) slices_S200704x128_S200000x128_0_0

/-- Entry (i, q) of them. -/
theorem updated_apply (c : Dev nD) (i : Fin 200000) (q : Fin 128) :
    updated m c (ix2 i q)
      = Gru.cell (fun k => (m ((c : Thread nD τ).loc main_arg1) : S200000x256.Idx → EReal) (ix2 i k))
          (fun k => Arrays.gathered (m ((c : Thread nD τ).loc main_arg0)) (m ((c : Thread nD τ).loc main_arg3)) (ix2 i k))
          (fun k o => transpose S256x384 [1, 0] (m ((c : Thread nD τ).loc main_arg5)) transposes_S384x256_S256x384_1_0 (ix2 k o))
          (fun k o => transpose S128x384 [1, 0] (m ((c : Thread nD τ).loc main_arg6)) transposes_S384x128_S128x384_1_0 (ix2 k o))
          (fun o => (m ((c : Thread nD τ).loc main_arg7) : S384.Idx → EReal) (ix1 o))
          (fun o => (m ((c : Thread nD τ).loc main_arg8) : S384.Idx → EReal) (ix1 o)) q := by
  have hi : i.val < 200000 := i.isLt
  let r : Fin 200704 := ⟨i.val, by omega⟩
  have hr : r.val = i.val := rfl
  unfold updated
  rw [slice2_axis0_apply 0 _ _ i q r (by rw [hr]; omega)]
  unfold Blocks.result
  have hrow : Blocks.row (ix2 r q) = r := rfl
  have hcol : Blocks.col (ix2 r q) = q := rfl
  rw [hrow, hcol, Arrays.inputRows, Arrays.stateRows, Arrays.inputWeights, Arrays.stateWeights, V_main_arg7, V_main_arg8]
  rw [funext fun k => pad_rows_apply _ _ _ h_S_ i r hr k, funext fun k => pad_rows_apply _ _ _ h_S_ i r hr k]

end Cert.KernelIdeal.Rows

end
-- ==== Proof.KernelRun.lean ====
/-
  The kernel program's run, read: its two results as functions of the arguments.

  After the kernel, the program cuts the 704 rows of padding off the kernel's result and scatters the remaining 200000
  rows into the state table through the node ids; it scatters the time stamps into the time table through the same ids.
  Both scatters read the tables and the ids as the program was launched with them, and the first reads the kernel's
  result array, which is the recurrent cell row by row.
-/
import proofs.«121281_j81570018885819_2_alg».proof.Proof.KernelRows
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The new state table. -/
def newState (c : Dev nD) : S500000x128.Idx → EReal :=
  Host.scatter scatter_S500000x128_S200000x1_S200000x128_1_0_0_1 (fun _ b => b) (m ((c : Thread nD τ).loc main_arg3))
    (Arrays.idCol (m ((c : Thread nD τ).loc main_arg0))) (Rows.updated m c)

/-- The new time table. -/
def newTimes (c : Dev nD) : S500000.Idx → EReal :=
  Host.scatter scatter_S500000_S200000x1_S200000_n_0_0_1 (fun _ b => b) (m ((c : Thread nD τ).loc main_arg4))
    (Arrays.idCol (m ((c : Thread nD τ).loc main_arg0))) (m ((c : Thread nD τ).loc main_arg2))

theorem flatten_one {α : Type} (l : List α) : [l].flatten = l := by
  simp only [List.flatten_cons, List.flatten_nil, List.append_nil]

/-- The first result after the run. -/
theorem state_eq (c : Dev nD) :
    Pipeline.afterTail₀ cfgs (dats m) 0 (V0 m) [hostOps1] c main_v0_0 = newState m c := by
  have e0 : V0 m c (Proc.devRef .tc main_arg0) = m ((c : Thread nD τ).loc main_arg0) := V_main_arg0 m c
  have e3 : V0 m c (Proc.devRef .tc main_arg3) = m ((c : Thread nD τ).loc main_arg3) := V_main_arg3 m c
  have r0 : (TRef.of main_arg0 : TRef sig ⟨S200000, .i32⟩).ofBuf (m ((c : Thread nD τ).loc main_arg0))
      = m ((c : Thread nD τ).loc main_arg0) := rfl
  have r3 : (TRef.of main_arg3 : TRef sig ⟨S500000x128, .f32⟩).ofBuf (m ((c : Thread nD τ).loc main_arg3))
      = m ((c : Thread nD τ).loc main_arg3) := rfl
  have r13 : ∀ X : S200704x128.Idx → EReal,
      (TRef.of main_call0_v13 : TRef sig ⟨S200704x128, .f32⟩).ofBuf (Val := Elt Ideal) X = X := fun _ => rfl
  have w : ∀ X : S500000x128.Idx → EReal, (TRef.of main_v0_0 : TRef sig ⟨S500000x128, .f32⟩).toBuf (Val := Elt Ideal) X = X :=
    fun _ => rfl
  unfold Pipeline.afterTail₀
  rw [flatten_one, Arrays.tail_state,
    Pipeline.withArrays_of_ne _ c (V0 m c) _ main_arg3 (by exact (by decide : ∀ w, Pipeline.arrRef spec0 w ≠ main_arg3)),
    Pipeline.withArrays_of_ne _ c (V0 m c) _ main_arg0 (by exact (by decide : ∀ w, Pipeline.arrRef spec0 w ≠ main_arg0)),
    Pipeline.withArrays_arr _ launch0.win.arr_inj c (V0 m c) _ 6, Blocks.final, e0, e3, r0, r3, r13, w]
  rfl

/-- The second result after the run. -/
theorem times_eq (c : Dev nD) :
    Pipeline.afterTail₀ cfgs (dats m) 0 (V0 m) [hostOps1] c main_v0_1 = newTimes m c := by
  have e0 : V0 m c (Proc.devRef .tc main_arg0) = m ((c : Thread nD τ).loc main_arg0) := V_main_arg0 m c
  have e2 : V0 m c (Proc.devRef .tc main_arg2) = m ((c : Thread nD τ).loc main_arg2) := V_main_arg2 m c
  have e4 : V0 m c (Proc.devRef .tc main_arg4) = m ((c : Thread nD τ).loc main_arg4) := V_main_arg4 m c
  have r0 : (TRef.of main_arg0 : TRef sig ⟨S200000, .i32⟩).ofBuf (m ((c : Thread nD τ).loc main_arg0))
      = m ((c : Thread nD τ).loc main_arg0) := rfl
  have r2 : (TRef.of main_arg2 : TRef sig ⟨S200000, .f32⟩).ofBuf (m ((c : Thread nD τ).loc main_arg2))
      = m ((c : Thread nD τ).loc main_arg2) := rfl
  have r4 : (TRef.of main_arg4 : TRef sig ⟨S500000, .f32⟩).ofBuf (m ((c : Thread nD τ).loc main_arg4))
      = m ((c : Thread nD τ).loc main_arg4) := rfl
  have w : ∀ X : S500000.Idx → EReal, (TRef.of main_v0_1 : TRef sig ⟨S500000, .f32⟩).toBuf (Val := Elt Ideal) X = X :=
    fun _ => rfl
  unfold Pipeline.afterTail₀
  rw [flatten_one, Arrays.tail_times,
    Pipeline.withArrays_of_ne _ c (V0 m c) _ main_arg4 (by exact (by decide : ∀ w, Pipeline.arrRef spec0 w ≠ main_arg4)),
    Pipeline.withArrays_of_ne _ c (V0 m c) _ main_arg0 (by exact (by decide : ∀ w, Pipeline.arrRef spec0 w ≠ main_arg0)),
    Pipeline.withArrays_of_ne _ c (V0 m c) _ main_arg2 (by exact (by decide : ∀ w, Pipeline.arrRef spec0 w ≠ main_arg2)),
    e0, e2, e4, r0, r2, r4, w]
  rfl

/-- Every weakly fair execution of the kernel program ends with the two results at `newState` and `newTimes` and the
    arguments as launched. -/
theorem run : θ_run defs (onTc (τ := τ) (main (F := Ideal))) ⟨m, fun _ => 0, ρ⟩ (fun r => ∀ c : Dev nD,
      r.2.mem ((c.tc : Thread nD τ).loc main_v0_0) = newState m c
      ∧ r.2.mem ((c.tc : Thread nD τ).loc main_v0_1) = newTimes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v0_0 (Pipeline.mem_restRefs_of main_v0_0 (by decide) (by decide))).trans (state_eq m c),
      ((h c).2 main_v0_1 (Pipeline.mem_restRefs_of main_v0_1 (by decide) (by decide))).trans (times_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c)))⟩)
    (run_main m ρ)

end Cert.KernelIdeal.Run

end
-- ==== Proof.Bridge.lean ====
/-
  The two programs compute one function.

  Both programs scatter updated rows into the state table through the same column of row indices, and the time stamps
  into the time table through it. The reference's updated rows and the rows the kernel program scatters back are, entry
  by entry, the same recurrent cell of the same input row, the same gathered state row, the same transposed weights and
  the same biases; so the scattered tables are equal.
-/
import proofs.«121281_j81570018885819_2_alg».proof.Proof.RefCell
import proofs.«121281_j81570018885819_2_alg».proof.Proof.KernelRun

noncomputable section

namespace Cert.Bridge

open Idealize.ShloMosaic Idealize.ShloMosaic.TcCoe Idealize.SL.Sem Idealize.ShloMosaic.ValueIdx
open Cert.KernelIdeal Cert.ReferenceIdeal.Read

/-- The reference's column of row indices for the state table is the kernel program's. -/
theorem stateCol_eq (x0 : (⟨Cert.KernelIdeal.S200000, .i32⟩ : BufTy).Contents (Elt Ideal)) :
    val_main_v50 (F := Ideal) x0 = Arrays.idCol x0 := by
  unfold val_main_v50 val_main_v49 val_main_v48 val_main_v47 val_main_v46 val_main_v45 val_main_c_5 val_main_c_6 Arrays.idCol
  rfl

/-- The reference's column of row indices for the time table is the kernel program's. -/
theorem timeCol_eq (x0 : (⟨Cert.KernelIdeal.S200000, .i32⟩ : BufTy).Contents (Elt Ideal)) :
    val_main_v57 (F := Ideal) x0 = Arrays.idCol x0 := by
  unfold val_main_v57 val_main_v56 val_main_v55 val_main_v54 val_main_v53 val_main_v52 val_main_c_7 val_main_c_8 Arrays.idCol
  rfl

/-- The reference's gathered state rows are the kernel program's. -/
theorem gathered_eq (x0 : (⟨Cert.KernelIdeal.S200000, .i32⟩ : BufTy).Contents (Elt Ideal))
    (x3 : (⟨Cert.KernelIdeal.S500000x128, .f32⟩ : BufTy).Contents (Elt Ideal)) :
    val_main_v6 (F := Ideal) x0 x3 = Arrays.gathered x0 x3 := by
  unfold val_main_v6 val_main_v5 val_main_v4 val_main_v3 val_main_v2 val_main_v1 val_main_v0 val_main_c val_main_c_0
    Arrays.gathered Arrays.idCol
  rfl

variable (m : (ℓ : Loc nD τ sig) → Buf (Elt Ideal) ℓ)

/-- The reference's updated rows, of the kernel program's arguments, are the rows the kernel program scatters back. -/
theorem updated_eq (c : Dev nD) :
    val_main_v44 (F := Ideal) (m ((c : Thread nD τ).loc main_arg0)) (m ((c : Thread nD τ).loc main_arg1))
        (m ((c : Thread nD τ).loc main_arg3)) (m ((c : Thread nD τ).loc main_arg5)) (m ((c : Thread nD τ).loc main_arg6))
        (m ((c : Thread nD τ).loc main_arg7)) (m ((c : Thread nD τ).loc main_arg8))
      = Rows.updated m c := by
  funext j
  obtain ⟨i, q, rfl⟩ : ∃ (i : Fin 200000) (q : Fin 128), j = ix2 i q := ⟨j 0, j 1, eq_ix2 j⟩
  rw [Cert.ReferenceIdeal.Cell.updated_apply, Rows.updated_apply, gathered_eq]
  unfold val_main_v7 val_main_v12
  rfl

/-- The new state tables agree. -/
theorem state_eq (c : Dev nD) :
    val_main_v51 (F := Ideal) (m ((c : Thread nD τ).loc main_arg0)) (m ((c : Thread nD τ).loc main_arg1))
        (m ((c : Thread nD τ).loc main_arg3)) (m ((c : Thread nD τ).loc main_arg5)) (m ((c : Thread nD τ).loc main_arg6))
        (m ((c : Thread nD τ).loc main_arg7)) (m ((c : Thread nD τ).loc main_arg8))
      = Run.newState m c := by
  unfold val_main_v51
  rw [stateCol_eq, updated_eq m c]
  rfl

/-- The new time tables agree. -/
theorem times_eq (c : Dev nD) :
    val_main_v58 (F := Ideal) (m ((c : Thread nD τ).loc main_arg0)) (m ((c : Thread nD τ).loc main_arg2))
        (m ((c : Thread nD τ).loc main_arg4))
      = Run.newTimes m c := by
  unfold val_main_v58
  rw [timeCol_eq]
  rfl

end Cert.Bridge

end
-- ==== Proof.lean ====
/-
  A gated recurrent cell applied to gathered rows of a state table, and the updated rows scattered back.

  Both programs gather 200000 rows of the state table through the node ids, run the recurrent cell on each input row
  and its gathered state row, and scatter the 200000 updated rows back into the table through the same ids; both scatter
  the time stamps into the time table. The reference does the cell's two affine layers as two matrix products over all
  rows; the kernel pads the rows to 196 blocks of 1024, does the two products block by block on operands rounded to
  bf16, and spells the logistic function as one operation where the reference writes 1 / (1 + exp(−x)). At the ideal
  values rounding is the identity, each product is the plain sum over the contraction index, and the two spellings of
  the logistic function are one function, so the updated rows agree entry by entry (Proof/Bridge.lean), and the two
  scatters of equal rows through equal indices into equal tables are equal.

  The three frames: the two kernel programs' by their generated frame runs, the reference's by its generated run. The
  ideal pass rewrote nothing, so there is nothing to preserve.
-/
import proofs.«121281_j81570018885819_2_alg».proof.Defs
import proofs.«121281_j81570018885819_2_alg».proof.Proof.Gen.Kernel
import proofs.«121281_j81570018885819_2_alg».proof.Proof.Gen.Kernel.Skeleton
import proofs.«121281_j81570018885819_2_alg».proof.Proof.Gen.Kernel.Launch
import proofs.«121281_j81570018885819_2_alg».proof.Proof.Gen.Kernel.Points
import proofs.«121281_j81570018885819_2_alg».proof.Proof.Gen.Kernel.Frame
import proofs.«121281_j81570018885819_2_alg».proof.Proof.Gen.KernelIdeal
import proofs.«121281_j81570018885819_2_alg».proof.Proof.Gen.KernelIdeal.Skeleton
import proofs.«121281_j81570018885819_2_alg».proof.Proof.Gen.KernelIdeal.Launch
import proofs.«121281_j81570018885819_2_alg».proof.Proof.Gen.KernelIdeal.Points
import proofs.«121281_j81570018885819_2_alg».proof.Proof.Gen.KernelIdeal.Frame
import proofs.«121281_j81570018885819_2_alg».proof.Proof.Gen.ReferenceIdeal
import proofs.«121281_j81570018885819_2_alg».proof.Proof.Gen.Pre_finite_inputs
import proofs.«121281_j81570018885819_2_alg».proof.Proof.Gen.ReferenceIdeal.Run
import proofs.«121281_j81570018885819_2_alg».proof.Proof.Gen.ReferenceIdeal.Read
import proofs.«121281_j81570018885819_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- From memories that agree on the arguments, the kernel program's two results are the new state table and the new
    time table (its run, read), and the reference's are its own scatters of its updated rows and of the time stamps
    (its generated run), which are the same tables. -/
theorem algebraic : Cert.algebraic_KernelIdeal_ReferenceIdeal := by
  intro m ρ m' ρ' _ hagree
  refine ⟨fun c => Cert.KernelIdeal.Run.newState m c, fun c => Cert.KernelIdeal.Run.newTimes m c,
    Cert.KernelIdeal.Run.run m ρ, ?_⟩
  refine (θ_run Cert.ReferenceIdeal.defs _ _).mono (fun _ h c => ?_)
    (Cert.ReferenceIdeal.Value.run (F := Ideal) m' ρ')
  obtain ⟨a0, a1, a2, a3, a4, a5, a6, a7, a8⟩ := hagree c
  refine ⟨(h c).1.trans ?_, (h c).2.1.trans ?_, (h c).2.2⟩
  · rw [Cert.ReferenceIdeal.Read.val_main_v51_eq, a0, a1, a3, a5, a6, a7, a8]
    exact Cert.Bridge.state_eq m c
  · refine (Cert.ReferenceIdeal.Read.val_main_v58_eq (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg4))).trans ?_
    rw [a0, a2, a4]
    exact Cert.Bridge.times_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
